-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S4096x16384 : Shape := ⟨2, ![4096, 16384]⟩
abbrev S1x16384 : Shape := ⟨2, ![1, 16384]⟩
abbrev S8192x16384 : Shape := ⟨2, ![8192, 16384]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S8192x4096, .bf16⟩
  | .hbm, ⟨4, _⟩ => ⟨S16384x4096, .f32⟩
  | .hbm, ⟨5, _⟩ => ⟨S16384x4096, .bf16⟩
  | .hbm, ⟨6, _⟩ => ⟨S4096x16384, .bf16⟩
  | .hbm, ⟨7, _⟩ => ⟨S1x16384, .f32⟩
  | .hbm, ⟨8, _⟩ => ⟨S8192x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  transposes_S16384x4096_S4096x16384_1_0 : S16384x4096.Transposes [1, 0] S4096x16384
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x16384.size a
  hwx0_1 : ∀ i : grid0.Coords, EltTy.bits .bf16 = 32 ∨ (Rect.block (s := S4096x16384) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x16384.size a
  hwx0_3 : ∀ i : grid0.Coords, EltTy.bits .f32 = 32 ∨ (Rect.block (s := S8192x16384) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S8192x16384 : Shape := ⟨2, ![8192, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S8192x16384, .f32⟩
  | .hbm, ⟨5, _⟩ => ⟨S1x16384, .f32⟩
  | .hbm, ⟨6, _⟩ => ⟨S8192x16384, .f32⟩
  | .hbm, ⟨7, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.HalfSums.lean ====
/-
  The one law that joins the two programs.  The kernel contracts the inner axis of length 4096 in two
  consecutive halves of length 2048, adding each half's partial sum of products to an accumulator that starts
  at zero; the reference contracts the whole axis at once.  On the extended reals addition is commutative
  and associative with neutral element zero (at the infinities too), so a sum over `Fin (n + n)` is the sum
  over its first `n` indices plus the sum over its last `n`, and nothing about finiteness is used.
-/
import Mathlib.Algebra.BigOperators.Fin
import Mathlib.Data.EReal.Basic

namespace Cert.HalfSums

/-- A sum over `n + n` consecutive indices is the accumulation, from zero, of the sum over the first `n`
    and then the sum over the last `n`. -/
theorem accumulate_two_halves {M : Type*} [AddCommMonoid M] (n : ℕ) (f : Fin (n + n) → M) :
    (0 + ∑ k : Fin n, f (Fin.castAdd n k)) + ∑ k : Fin n, f (Fin.natAdd n k) = ∑ k : Fin (n + n), f k := by
  rw [zero_add, Fin.sum_univ_add]

end Cert.HalfSums
-- ==== Proof.Spec.lean ====
/-
  The function both programs compute, entry by entry on the extended reals: for a token row r and an output
  channel o,

      y[r, o] = (∑ k < 4096, x[r, k] · s[o, k]) · scale[o],

  where s is the array of signs of the weights (the same array on both sides, never opened here).  The module also
  restates the sum as the grid builds it: starting from zero, the first 2048 inner positions, then the last 2048.
-/
import proofs.«159327_j17051020165443_2_alg».proof.Proof.HalfSums
import Idealize.ShloMosaic.PureOps.Ideal
import Idealize.ShloMosaic.Lib.ValueIdx

noncomputable section

open Idealize.ShloMosaic Idealize.ShloMosaic.ValueIdx

namespace Cert.ScaledProduct

/-- Entry (r, o) of the result: the inner product of row r of `x` with row o of `s`, times the o-th scale. -/
def entry (x : (⟨2, ![8192, 4096]⟩ : Shape).Idx → EReal) (s : (⟨2, ![16384, 4096]⟩ : Shape).Idx → EReal)
    (sc : (⟨1, ![16384]⟩ : Shape).Idx → EReal) (r : Fin 8192) (o : Fin 16384) : EReal :=
  (∑ k : Fin 4096, x (ix2 r k) * s (ix2 o k)) * sc (ix1 o)

/-- The whole result array. -/
def target (x : (⟨2, ![8192, 4096]⟩ : Shape).Idx → EReal) (s : (⟨2, ![16384, 4096]⟩ : Shape).Idx → EReal)
    (sc : (⟨1, ![16384]⟩ : Shape).Idx → EReal) : (⟨2, ![8192, 16384]⟩ : Shape).Idx → EReal :=
  fun i => entry x s sc ⟨(i 0).val, (i 0).isLt⟩ ⟨(i 1).val, (i 1).isLt⟩

/-- The array at (r, o) is that entry. -/
theorem target_apply (x : (⟨2, ![8192, 4096]⟩ : Shape).Idx → EReal) (s : (⟨2, ![16384, 4096]⟩ : Shape).Idx → EReal)
    (sc : (⟨1, ![16384]⟩ : Shape).Idx → EReal) (r : Fin 8192) (o : Fin 16384) :
    target x s sc (ix2 r o) = entry x s sc r o := rfl

/-- Inner position κ of the first half, as a position of the whole inner axis. -/
abbrev firstHalf (κ : Fin 2048) : Fin 4096 := ⟨κ.val, by omega⟩
/-- Inner position κ of the second half. -/
abbrev secondHalf (κ : Fin 2048) : Fin 4096 := ⟨2048 + κ.val, by omega⟩

/-- The entry as the grid accumulates it: from zero, the first half's inner product, then the second half's, then
    the scale.  Only that addition of extended reals is associative with neutral element zero is used. -/
theorem entry_eq_two_halves (x : (⟨2, ![8192, 4096]⟩ : Shape).Idx → EReal) (s : (⟨2, ![16384, 4096]⟩ : Shape).Idx → EReal)
    (sc : (⟨1, ![16384]⟩ : Shape).Idx → EReal) (r : Fin 8192) (o : Fin 16384) :
    ((0 + ∑ κ : Fin 2048, x (ix2 r (firstHalf κ)) * s (ix2 o (firstHalf κ)))
        + ∑ κ : Fin 2048, x (ix2 r (secondHalf κ)) * s (ix2 o (secondHalf κ))) * sc (ix1 o)
      = entry x s sc r o :=
  congrArg (· * sc (ix1 o))
    (Cert.HalfSums.accumulate_two_halves 2048 (fun k : Fin (2048 + 2048) => x (ix2 r k) * s (ix2 o k)))

end Cert.ScaledProduct

end
-- ==== Proof.TileEntry.lean ====
/-
  The body's arithmetic read at one entry (p, q) of a 1024 × 1024 tile, on the extended reals.
  The stored zero block is 0 everywhere.  One accumulation step adds to the accumulator's entry the inner product
  of row p of the 1024 × 2048 left block with column q of the 2048 × 1024 right block, a sum over the 2048 inner
  positions.  The final scaling multiplies the entry by the q-th of the 1024 scales (the one row of scales is
  repeated down all 1024 rows).  Changes of float format do nothing on the extended reals.
-/
import proofs.«159327_j17051020165443_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileEntry

open Cert.KernelIdeal Cert.KernelIdeal.Gen

/-- The zero block is 0 at every entry. -/
theorem zero_block_apply (y : S1024x1024.Idx) : k0_pay1 (F := Ideal) y = 0 := by
  simp only [k0_pay1, shapeCast_self, broadcast_apply]
  exact Ideal.ofBits_zero_f32

/-- The left operand of the block product is read at (row of the output entry, inner position): the row … -/
theorem left_row (i : S1024x1024.Idx) (k : dot_S1024x2048_S2048x1024_S1024x1024_1_0_0_1_n_n.contr.Idx) :
    (dot_S1024x2048_S2048x1024_S1024x1024_1_0_0_1_n_n.lhsIdx i k 0).val = (i 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl
/-- … and the inner position. -/
theorem left_inner (i : S1024x1024.Idx) (k : dot_S1024x2048_S2048x1024_S1024x1024_1_0_0_1_n_n.contr.Idx) :
    (dot_S1024x2048_S2048x1024_S1024x1024_1_0_0_1_n_n.lhsIdx i k 1).val = (k ⟨0, by decide⟩).val :=
  dot_S1024x2048_S2048x1024_S1024x1024_1_0_0_1_n_n.lhsIdx_val_of_single rfl i k
/-- The right operand is read at (inner position, column of the output entry): the inner position … -/
theorem right_inner (i : S1024x1024.Idx) (k : dot_S1024x2048_S2048x1024_S1024x1024_1_0_0_1_n_n.contr.Idx) :
    (dot_S1024x2048_S2048x1024_S1024x1024_1_0_0_1_n_n.rhsIdx i k 0).val = (k ⟨0, by decide⟩).val :=
  dot_S1024x2048_S2048x1024_S1024x1024_1_0_0_1_n_n.rhsIdx_val_of_single rfl i k
/-- … and the column. -/
theorem right_col (i : S1024x1024.Idx) (k : dot_S1024x2048_S2048x1024_S1024x1024_1_0_0_1_n_n.contr.Idx) :
    (dot_S1024x2048_S2048x1024_S1024x1024_1_0_0_1_n_n.rhsIdx i k 1).val = (i 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The block product into a zero accumulator, at entry (p, q): the inner product of row p and column q. -/
theorem block_product_apply (a : FVec Ideal S1024x2048 .bf16) (b : FVec Ideal S2048x1024 .bf16) (p q : Fin 1024) :
    FloatOps.matmul dot_S1024x2048_S2048x1024_S1024x1024_1_0_0_1_n_n none a b (constant S1024x1024 .f32 0x00000000#32) (ix2 p q)
      = ∑ κ : Fin 2048, a (ix2 p κ) * b (ix2 κ q) := by
  rw [Ideal.matmul_constant_zero_apply, ← Equiv.sum_comp (contrEquiv1 dot_S1024x2048_S2048x1024_S1024x1024_1_0_0_1_n_n 2048 rfl rfl).symm]
  refine Finset.sum_congr rfl fun κ _ => ?_
  have hk := contrEquiv1_symm_val dot_S1024x2048_S2048x1024_S1024x1024_1_0_0_1_n_n 2048 rfl rfl κ
  have el : dot_S1024x2048_S2048x1024_S1024x1024_1_0_0_1_n_n.lhsIdx (ix2 p q) ((contrEquiv1 dot_S1024x2048_S2048x1024_S1024x1024_1_0_0_1_n_n 2048 rfl rfl).symm κ) = ix2 p κ :=
    funext fun ax => Fin.ext (by
      match ax with
      | ⟨0, _⟩ => exact left_row _ _
      | ⟨1, _⟩ => exact (left_inner _ _).trans hk)
  have er : dot_S1024x2048_S2048x1024_S1024x1024_1_0_0_1_n_n.rhsIdx (ix2 p q) ((contrEquiv1 dot_S1024x2048_S2048x1024_S1024x1024_1_0_0_1_n_n 2048 rfl rfl).symm κ) = ix2 κ q :=
    funext fun ax => Fin.ext (by
      match ax with
      | ⟨0, _⟩ => exact (right_inner _ _).trans hk
      | ⟨1, _⟩ => exact right_col _ _)
  rw [el, er]

/-- One accumulation step at entry (p, q): the accumulator's entry plus the inner product of row p of the left block
    with column q of the right block. -/
theorem accumulate_apply (acc : Vec Ideal S1024x1024 .f32) (a : Vec Ideal S1024x2048 .bf16) (b : Vec Ideal S2048x1024 .bf16)
    (p q : Fin 1024) :
    k0_pay2 acc a b (ix2 p q) = acc (ix2 p q) + ∑ κ : Fin 2048, a (ix2 p κ) * b (ix2 κ q) := by
  simp only [k0_pay2, shapeCast_self]
  exact congrArg (acc (ix2 p q) + ·) (block_product_apply a b p q)

/-- The scaling at entry (p, q): the entry times the q-th scale. -/
theorem scale_apply (A : Vec Ideal S1024x1024 .f32) (s : Vec Ideal S1x1024 .f32) (p q : Fin 1024) :
    k0_pay3 A s (ix2 p q) = A (ix2 p q) * s (ix2 (0 : Fin 1) q) := by
  simp only [k0_pay3, shapeCast_self]
  exact congrArg (A (ix2 p q) * ·) (broadcastTo_1b_ab_apply s broadcasts_S1x1024_S1024x1024 p q)

/-- The whole tile after the two halves, at entry (p, q): zero, plus the first half's inner product, plus the second
    half's, times the scale. -/
theorem tile_apply (a0 a1 : Vec Ideal S1024x2048 .bf16) (b0 b1 : Vec Ideal S2048x1024 .bf16) (s : Vec Ideal S1x1024 .f32)
    (p q : Fin 1024) :
    k0_pay3 (k0_pay2 (k0_pay2 k0_pay1 a0 b0) a1 b1) s (ix2 p q)
      = ((0 + ∑ κ : Fin 2048, a0 (ix2 p κ) * b0 (ix2 κ q)) + ∑ κ : Fin 2048, a1 (ix2 p κ) * b1 (ix2 κ q))
          * s (ix2 (0 : Fin 1) q) := by
  rw [scale_apply, accumulate_apply, accumulate_apply, zero_block_apply]

end Cert.KernelIdeal.TileEntry

end
-- ==== Proof.HostPrefix.lean ====
/-
  The three arrays the grid reads, as the host operations before it leave them, on the extended reals.
  The left operand is the first argument with its float format changed, which does nothing there: entry (r, k)
  is x[r, k].  The right operand is the sign of the second argument, format changed, then transposed: entry
  (k, o) is sign(w)[o, k].  The scales are the third argument with a unit axis put in front: entry (0, o) is
  scale[o].
-/
import proofs.«159327_j17051020165443_2_alg».proof.Proof.Gen.KernelIdeal.Frame.Runs
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostPrefix

open Cert.KernelIdeal Cert.KernelIdeal.Gen

variable (m : (ℓ : Loc nD τ sig) → Buf (Elt Ideal) ℓ)

/-- The left operand at (r, k) is the first argument at (r, k). -/
theorem left_operand_apply (c : Dev nD) (r : Fin 8192) (k : Fin 4096) :
    (V m c main_v0 : S8192x4096.Idx → EReal) (ix2 r k)
      = (m ((c : Thread nD τ).loc main_arg0) : S8192x4096.Idx → EReal) (ix2 r k) := by
  have e : (V m c main_v0 : S8192x4096.Idx → EReal)
      = (truncf .bf16 (m ((c : Thread nD τ).loc main_arg0)) bitsLt_bf16_f32 : FVec Ideal S8192x4096 .bf16) := by
    dsimp only [Gen.V, Gen.hostOps0]; after_results; all_goals rfl
  rw [e]; rfl

/-- The right operand at (k, o) is the sign of the second argument at (o, k). -/
theorem right_operand_apply (c : Dev nD) (k : Fin 4096) (o : Fin 16384) :
    (V m c main_v3 : S4096x16384.Idx → EReal) (ix2 k o)
      = (Host.sign (F := Ideal) (φ := .f32) (m ((c : Thread nD τ).loc main_arg1)) : S16384x4096.Idx → EReal) (ix2 o k) := by
  have e : (V m c main_v3 : S4096x16384.Idx → EReal)
      = (transpose S4096x16384 [1, 0]
          (truncf .bf16 (Host.sign (F := Ideal) (φ := .f32) (m ((c : Thread nD τ).loc main_arg1))) bitsLt_bf16_f32 : FVec Ideal S16384x4096 .bf16)
          transposes_S16384x4096_S4096x16384_1_0 : FVec Ideal S4096x16384 .bf16) := by
    dsimp only [Gen.V, Gen.hostOps0]; after_results; all_goals rfl
  rw [e, transpose_ix2_apply]; rfl

/-- The scales at (0, o) are the third argument at o. -/
theorem scales_apply (c : Dev nD) (o : Fin 16384) :
    (V m c main_v4 : S1x16384.Idx → EReal) (ix2 (0 : Fin 1) o)
      = (m ((c : Thread nD τ).loc main_arg2) : S16384.Idx → EReal) (ix1 o) := by
  have e : (V m c main_v4 : S1x16384.Idx → EReal)
      = (shapeCast S1x16384 (m ((c : Thread nD τ).loc main_arg2)) shapeCasts_S16384_S1x16384 : FVec Ideal S1x16384 .f32) := by
    dsimp only [Gen.V, Gen.hostOps0]; after_results; all_goals rfl
  rw [e, shapeCast_a_1a_apply]

end Cert.KernelIdeal.HostPrefix

end
-- ==== Proof.BlockReads.lean ====
/-
  Where a grid point's blocks sit in their arrays.  The 256 points are numbered t = (i · 16 + j) · 2 + h for row tile
  i < 8, column tile j < 16 and half h < 2 of the inner axis; so i = t / 32, j = (t / 2) mod 16, h = t mod 2.
  The left operand's block at t is rows i·1024 … of columns h·2048 …; the right operand's is rows h·2048 … of
  columns j·1024 …; the scales' is columns j·1024 … of the single row; the output tile is rows i·1024 …,
  columns j·1024 ….  An entry of a block is the array's entry at block index × block size + the entry's own
  coordinate, on each axis.
-/
import proofs.«159327_j17051020165443_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockReads

open Cert.KernelIdeal Cert.KernelIdeal.Gen

variable (m : (ℓ : Loc nD τ sig) → Buf (Elt Ideal) ℓ)

/-- The block indices of the four windows at point t, in closed form (decided over the 256 points). -/
theorem block_indices : ∀ t : Fin cfg0.N,
    win0_0.index t (0 : Fin 2) = t.val / 32 ∧ win0_0.index t (1 : Fin 2) = t.val % 2
    ∧ win0_1.index t (0 : Fin 2) = t.val % 2 ∧ win0_1.index t (1 : Fin 2) = t.val / 2 % 16
    ∧ win0_2.index t (0 : Fin 2) = 0 ∧ win0_2.index t (1 : Fin 2) = t.val / 2 % 16
    ∧ win0_3.index t (0 : Fin 2) = t.val / 32 ∧ win0_3.index t (1 : Fin 2) = t.val / 2 % 16 :=
  (by decide +kernel : ∀ t : Fin grid0.N,
    win0_0.index t (0 : Fin 2) = t.val / 32 ∧ win0_0.index t (1 : Fin 2) = t.val % 2
    ∧ win0_1.index t (0 : Fin 2) = t.val % 2 ∧ win0_1.index t (1 : Fin 2) = t.val / 2 % 16
    ∧ win0_2.index t (0 : Fin 2) = 0 ∧ win0_2.index t (1 : Fin 2) = t.val / 2 % 16
    ∧ win0_3.index t (0 : Fin 2) = t.val / 32 ∧ win0_3.index t (1 : Fin 2) = t.val / 2 % 16)

/-- Entry (p, κ) of the left operand's block at t is the left operand at (r, k) when r and k are the block's offsets
    plus p and κ. -/
theorem left_block_apply (c : Dev nD) (t : Fin cfg0.N) (p : Fin 1024) (κ : Fin 2048) (r : Fin 8192) (k : Fin 4096)
    (hr : r.val = win0_0.index t (0 : Fin 2) * 1024 + p.val) (hk : k.val = win0_0.index t (1 : Fin 2) * 2048 + κ.val) :
    (iblk m c 0 t : Vec Ideal S1024x2048 .bf16) (ix2 p κ) = (V m c main_v0 : S8192x4096.Idx → EReal) (ix2 r k) := by
  unfold iblk
  rw [View.read_apply]
  show V m c main_v0 (((cfg0.win 0).blk t).view.emb (ix2 p κ)) = V m c main_v0 (ix2 r k)
  have h : ((cfg0.win 0).blk t).view.emb (ix2 p κ) = ix2 r k := by
    funext a; apply Fin.ext
    match a with
    | ⟨0, _⟩ => show win0_0.index t (0 : Fin 2) * 1024 + 1 * p.val = r.val; omega
    | ⟨1, _⟩ => show win0_0.index t (1 : Fin 2) * 2048 + 1 * κ.val = k.val; omega
  rw [h]

/-- Entry (κ, q) of the right operand's block at t is the right operand at (k, o). -/
theorem right_block_apply (c : Dev nD) (t : Fin cfg0.N) (κ : Fin 2048) (q : Fin 1024) (k : Fin 4096) (o : Fin 16384)
    (hk : k.val = win0_1.index t (0 : Fin 2) * 2048 + κ.val) (ho : o.val = win0_1.index t (1 : Fin 2) * 1024 + q.val) :
    (iblk m c 1 t : Vec Ideal S2048x1024 .bf16) (ix2 κ q) = (V m c main_v3 : S4096x16384.Idx → EReal) (ix2 k o) := by
  unfold iblk
  rw [View.read_apply]
  show V m c main_v3 (((cfg0.win 1).blk t).view.emb (ix2 κ q)) = V m c main_v3 (ix2 k o)
  have h : ((cfg0.win 1).blk t).view.emb (ix2 κ q) = ix2 k o := by
    funext a; apply Fin.ext
    match a with
    | ⟨0, _⟩ => show win0_1.index t (0 : Fin 2) * 2048 + 1 * κ.val = k.val; omega
    | ⟨1, _⟩ => show win0_1.index t (1 : Fin 2) * 1024 + 1 * q.val = o.val; omega
  rw [h]

/-- Entry (0, q) of the scales' block at t is the scales' row at o. -/
theorem scale_block_apply (c : Dev nD) (t : Fin cfg0.N) (q : Fin 1024) (o : Fin 16384)
    (hz : win0_2.index t (0 : Fin 2) = 0) (ho : o.val = win0_2.index t (1 : Fin 2) * 1024 + q.val) :
    (iblk m c 2 t : Vec Ideal S1x1024 .f32) (ix2 (0 : Fin 1) q) = (V m c main_v4 : S1x16384.Idx → EReal) (ix2 (0 : Fin 1) o) := by
  unfold iblk
  rw [View.read_apply]
  show V m c main_v4 (((cfg0.win 2).blk t).view.emb (ix2 (0 : Fin 1) q)) = V m c main_v4 (ix2 (0 : Fin 1) o)
  have h : ((cfg0.win 2).blk t).view.emb (ix2 (0 : Fin 1) q) = ix2 (0 : Fin 1) o := by
    funext a; apply Fin.ext
    match a with
    | ⟨0, _⟩ => show win0_2.index t (0 : Fin 2) * 1 + 1 * (0 : Fin 1).val = (0 : Fin 1).val; rw [hz]; rfl
    | ⟨1, _⟩ => show win0_2.index t (1 : Fin 2) * 1024 + 1 * q.val = o.val; omega
  rw [h]

end Cert.KernelIdeal.BlockReads

end
-- ==== Proof.CaseValues.lean ====
/-
  What one grid point leaves behind, for any float type.  The grid is (row tile, column tile, half of the
  inner axis).  At the first half the 1024 × 1024 accumulator is overwritten with zeros and the product of the
  point's 1024 × 2048 block of the left operand with its 2048 × 1024 block of the right operand is added to it; at
  the second half the product of that point's two blocks is added to what the first half left, and the sum,
  multiplied entry by entry with the point's row of 1024 scales repeated down the rows, is the output tile.
  Each statement below reads the contents of a buffer after the body as the arithmetic of the body's last store
  into it: every store covers its whole buffer, so only the last one is seen, and every load reads a whole buffer.
-/
import proofs.«159327_j17051020165443_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Both coordinates of a whole-buffer access start at zero. -/
theorem zero_offsets : (![0, 0] : Fin 2 → Nat) = fun _ => 0 := funext fun a => by fin_cases a <;> rfl

/-- First half of the inner axis: the accumulator ends at zero plus the product of the point's two blocks
    (the zero block is stored, read back, and the product added to it). -/
theorem accumulator_first_half (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (x2 : Vec F S1x1024 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x2048) zero_offsets,
    View.ld_unit_zero (S := S2048x1024) zero_offsets]

/-- Second half: the accumulator ends at what it held (`xs0`) plus the product of the point's two blocks. -/
theorem accumulator_second_half (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg7.read_unread, harg3.read_unread, harg4.read_unread,
    View.ld_unit_zero (S := S1024x1024) zero_offsets, View.ld_unit_zero (S := S1024x2048) zero_offsets,
    View.ld_unit_zero (S := S2048x1024) zero_offsets]

/-- Second half: the output tile is that updated accumulator, read back, times the row of scales. -/
theorem tile_second_half (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero zero_offsets, View.readCov_unit_zero (S := S1024x1024) _ zero_offsets]
  simp only [View.readAt_eq_ld, harg7.read_unread, harg3.read_unread, harg4.read_unread, harg5.read_unread,
    View.ld_unit_zero (S := S1024x1024) zero_offsets, View.ld_unit_zero (S := S1024x2048) zero_offsets,
    View.ld_unit_zero (S := S2048x1024) zero_offsets, View.ld_unit_zero (S := S1x1024) zero_offsets]

end Cert.KernelIdeal.CaseValues

end
-- ==== Proof.WrittenTile.lean ====
/-
  What a write-back writes.  Only the points of the second half (odd t) write their output tile back.  Such a point
  t runs right after the first-half point t' = t − 1 of the same row tile and column tile, which left in the
  accumulator zero plus the product of ITS two blocks; point t adds the product of its own two blocks and scales.  So
  the tile written at t is the body's arithmetic applied to the blocks of t' and of t, for any float type.
-/
import proofs.«159327_j17051020165443_2_alg».proof.Proof.CaseValues
import proofs.«159327_j17051020165443_2_alg».proof.Proof.Gen.KernelIdeal.Value

noncomputable section

open Idealize.ShloMosaic Idealize.ShloMosaic.TcCoe Idealize.SL.Sem
open Idealize.ShloMosaic.Pipeline (Dat)

namespace Cert.KernelIdeal.WrittenTile

open Cert.KernelIdeal Cert.KernelIdeal.Gen

variable {F : FTy → Type} [FloatOps F]
variable (m : (ℓ : Loc nD τ sig) → Buf (Elt F) ℓ)

/-- After an even point the accumulator holds zero plus the product of that point's blocks. -/
theorem accumulator_after_even (c : Dev nD) (t' : Fin cfg0.N) (hp0 : t'.val % 2 = 0) (hp1 : ¬t'.val % 2 = 1) :
    (outsAt0 m c t'.val t'.isLt).2 = k0_pay2 k0_pay1 (iblk m c 0 t') (iblk m c 1 t') := by
  rw [outsAt0_A m c t' hp0 hp1]
  dsimp only
  exact CaseValues.accumulator_first_half c (grid0.coords t') (ms0_0 t') (hs0_0 t') (ms0_1 t') (hs0_1 t') (ms0_2 t') (hs0_2 t') (ms0_3 t') (hs0_3 t') scM0_0 (Memref.isWhole_whole _)
    ((hcond0_0 t').mpr hp0) (fun h => hp1 ((hcond0_1 t').mp h)) (iblk m c 0 t') (iblk m c 1 t') (iblk m c 2 t')

/-- What the accumulator holds after a point depends on the point's number only. -/
theorem accumulator_congr (c : Dev nD) (n n' : ℕ) (hn : n < cfg0.N) (hn' : n' < cfg0.N) (e : n = n') :
    (outsAt0 m c n hn).2 = (outsAt0 m c n' hn').2 := by
  subst e; rfl

/-- The tile an odd point t writes back, with t' the point before it: zero, plus the product of the blocks of t',
    plus the product of the blocks of t, scaled by the block of scales of t. -/
theorem written_tile (c : Dev nD) (t t' : Fin cfg0.N) (h1 : t.val % 2 = 1) (ht' : t'.val = t.val - 1) :
    (dats m 0 c).flushed 3 t = (cfg0.win 3).cut (grid0.coords t)
      (k0_pay3 (k0_pay2 (k0_pay2 k0_pay1 (iblk m c 0 t') (iblk m c 1 t')) (iblk m c 0 t) (iblk m c 1 t))
        (iblk m c 2 t)) := by
  have h0 : ¬t.val % 2 = 0 := by omega
  have hp0 : t'.val % 2 = 0 := by omega
  have hp1 : ¬t'.val % 2 = 1 := by omega
  rw [Value.flushed3_B m c t h0 h1,
    CaseValues.tile_second_half c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2,
    accumulator_congr m c (t.val - 1) t'.val (Nat.lt_of_le_of_lt (Nat.sub_le _ _) t.isLt) t'.isLt ht'.symm,
    accumulator_after_even m c t' hp0 hp1]

end Cert.KernelIdeal.WrittenTile

end
-- ==== Proof.GridValue.lean ====
/-
  The result array after the whole grid, on the extended reals: the target function of the three arguments.
  A point of the second half, numbered t = (i · 16 + j) · 2 + 1, writes the output tile at rows i·1024 …, columns
  j·1024 ….  Its entry (p, q) is zero, plus the inner product over the first 2048 inner positions (the blocks of the
  point before), plus the inner product over the last 2048 (its own blocks), times the scale of column j·1024 + q:
  the target's entry (i·1024 + p, j·1024 + q), by the law that a sum over 4096 positions is the accumulation of its
  two halves.  Every entry (r, o) of the array lies in the tile of the point with i = r / 1024, j = o / 1024.
-/
import proofs.«159327_j17051020165443_2_alg».proof.Proof.Spec
import proofs.«159327_j17051020165443_2_alg».proof.Proof.TileEntry
import proofs.«159327_j17051020165443_2_alg».proof.Proof.HostPrefix
import proofs.«159327_j17051020165443_2_alg».proof.Proof.BlockReads
import proofs.«159327_j17051020165443_2_alg».proof.Proof.WrittenTile

noncomputable section

open Idealize.ShloMosaic Idealize.ShloMosaic.TcCoe Idealize.SL.Sem Idealize.ShloMosaic.ValueIdx
open Idealize.ShloMosaic.Pipeline (Dat)

namespace Cert.KernelIdeal.GridValue

open Cert.KernelIdeal Cert.KernelIdeal.Gen Cert.ScaledProduct

variable (m : (ℓ : Loc nD τ sig) → Buf (Elt Ideal) ℓ) (ρ : Dev nD → PrngReg)

/-- The result: the target function of x, the signs of the weights, and the scales, as launched. -/
abbrev result (c : Dev nD) : S8192x16384.Idx → EReal :=
  target (m ((c : Thread nD τ).loc main_arg0))
    (Host.sign (F := Ideal) (φ := .f32) (m ((c : Thread nD τ).loc main_arg1)))
    (m ((c : Thread nD τ).loc main_arg2))

/-- Two functions on a 1024 × 1024 tile that agree at every (p, q) are equal. -/
theorem tile_ext {α : Type} (f g : S1024x1024.Idx → α) (h : ∀ p q : Fin 1024, f (ix2 p q) = g (ix2 p q)) : f = g :=
  funext fun j => by
    obtain ⟨p, q, rfl⟩ : ∃ (p : Fin 1024) (q : Fin 1024), j = ix2 p q := ⟨j 0, j 1, eq_ix2 j⟩
    exact h p q

/-- Entry (p, q) of the tile written at an odd point t (t' the point before) is the target's entry at the tile's
    offsets plus (p, q). -/
theorem written_entry (c : Dev nD) (t t' : Fin cfg0.N) (h1 : t.val % 2 = 1) (ht' : t'.val = t.val - 1)
    (p q : Fin 1024) (r : Fin 8192) (o : Fin 16384)
    (hr : r.val = t.val / 32 * 1024 + p.val) (ho : o.val = t.val / 2 % 16 * 1024 + q.val) :
    k0_pay3 (k0_pay2 (k0_pay2 k0_pay1 (iblk m c 0 t') (iblk m c 1 t')) (iblk m c 0 t) (iblk m c 1 t)) (iblk m c 2 t) (ix2 p q)
      = result m c (ix2 r o) := by
  obtain ⟨a0, a1, b0, b1, s0, s1, -, -⟩ := BlockReads.block_indices t
  obtain ⟨a0', a1', b0', b1', -, -, -, -⟩ := BlockReads.block_indices t'
  rw [TileEntry.tile_apply (iblk m c 0 t') (iblk m c 0 t) (iblk m c 1 t') (iblk m c 1 t) (iblk m c 2 t) p q]
  refine Eq.trans ?_ (entry_eq_two_halves (m ((c : Thread nD τ).loc main_arg0))
    (Host.sign (F := Ideal) (φ := .f32) (m ((c : Thread nD τ).loc main_arg1))) (m ((c : Thread nD τ).loc main_arg2)) r o)
  refine congrArg₂ (· * ·) (congrArg₂ (· + ·) (congrArg (0 + ·) (Finset.sum_congr rfl fun κ _ => ?_))
    (Finset.sum_congr rfl fun κ _ => ?_)) ?_
  · rw [BlockReads.left_block_apply m c t' p κ r (firstHalf κ) (by rw [a0']; omega) (by rw [a1']; show κ.val = _; omega),
      BlockReads.right_block_apply m c t' κ q (firstHalf κ) o (by rw [b0']; show κ.val = _; omega) (by rw [b1']; omega),
      HostPrefix.left_operand_apply, HostPrefix.right_operand_apply]
  · rw [BlockReads.left_block_apply m c t p κ r (secondHalf κ) (by rw [a0]; omega) (by rw [a1]; show 2048 + κ.val = _; omega),
      BlockReads.right_block_apply m c t κ q (secondHalf κ) o (by rw [b0]; show 2048 + κ.val = _; omega) (by rw [b1]; omega),
      HostPrefix.left_operand_apply, HostPrefix.right_operand_apply]
  · rw [BlockReads.scale_block_apply m c t q o s0 (by rw [s1]; omega), HostPrefix.scales_apply]

/-- What an odd point writes back is its tile of the result. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 256 := lt_of_lt_of_eq t.isLt (show cfg0.N = 256 from N_0)
  obtain ⟨t', ht'⟩ : ∃ t' : Fin cfg0.N, t'.val = t.val - 1 :=
    ⟨⟨t.val - 1, Nat.lt_of_le_of_lt (Nat.sub_le _ _) t.isLt⟩, rfl⟩
  obtain ⟨-, -, -, -, -, -, o0, o1⟩ := BlockReads.block_indices t
  rw [WrittenTile.written_tile m c t t' h1 ht']
  refine tile_ext _ _ fun p q => ?_
  rw [View.read_apply]
  have he : ((cfg0.win 3).blk t).view.emb (ix2 p q)
      = ix2 (⟨t.val / 32 * 1024 + p.val, by omega⟩ : Fin 8192) (⟨t.val / 2 % 16 * 1024 + q.val, by omega⟩ : Fin 16384) := by
    funext a; apply Fin.ext
    match a with
    | ⟨0, _⟩ => show win0_3.index t (0 : Fin 2) * 1024 + 1 * p.val = t.val / 32 * 1024 + p.val; rw [o0]; omega
    | ⟨1, _⟩ => show win0_3.index t (1 : Fin 2) * 1024 + 1 * q.val = t.val / 2 % 16 * 1024 + q.val; rw [o1]; omega
  rw [he]
  exact written_entry m c t t' h1 ht' p q _ _ rfl rfl

/-- An entry of the array is in the tile of point t iff, on each axis, it lies in the tile's range. -/
theorem mem_tile (t : Fin cfg0.N) (i : S8192x16384.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every entry (r, o) lies in the tile written at the point (r / 1024, o / 1024, second half). -/
theorem covered (i : S8192x16384.Idx) :
    ∃ t : Fin cfg0.N, (cfg0.win 3).flush t = true ∧ i ∈ ((cfg0.win 3).blk t).view.set := by
  have hr : (i 0).val < 8192 := (i 0).isLt
  have ho : (i 1).val < 16384 := (i 1).isLt
  have hlt : ((i 0).val / 1024 * 16 + (i 1).val / 1024) * 2 + 1 < cfg0.N := by
    rw [show cfg0.N = 256 from N_0]; omega
  obtain ⟨t, ht⟩ : ∃ t : Fin cfg0.N, t.val = ((i 0).val / 1024 * 16 + (i 1).val / 1024) * 2 + 1 := ⟨⟨_, hlt⟩, rfl⟩
  obtain ⟨-, -, -, -, -, -, o0, o1⟩ := BlockReads.block_indices t
  refine ⟨t, (flush0_3 t).mpr (by omega), ?_⟩
  rw [mem_tile]
  intro a
  match a with
  | ⟨0, _⟩ =>
    show win0_3.index t (0 : Fin 2) * 1024 ≤ (i 0).val ∧ (i 0).val < win0_3.index t (0 : Fin 2) * 1024 + 1024
    rw [o0]; omega
  | ⟨1, _⟩ =>
    show win0_3.index t (1 : Fin 2) * 1024 ≤ (i 1).val ∧ (i 1).val < win0_3.index t (1 : Fin 2) * 1024 + 1024
    rw [o1]; omega

/-- After the grid the result array holds the target function of the arguments. -/
theorem final (c : Dev nD) : (dats m 0 c).arrAt 3 cfg0.N = result m c :=
  (dats m 0 c).arrAt_eq_of_cover 3 (result m c) (flushed_eq m c) covered

/-- The run: every execution ends with the result array at the target function and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.GridValue

end
-- ==== Proof.ReferenceValue.lean ====
/-
  The reference computes the target function.  Its five host operations are: the sign of the weights; a contraction
  of x with that array over the inner axis of both (so entry (r, o) sums x[r, k] · s[o, k] over all 4096 k); the
  scales given a unit leading axis and repeated down the 8192 rows; and the entrywise product of the two.  Read at an
  entry (r, o) this is exactly (∑ k, x[r, k] · s[o, k]) · scale[o].
-/
import proofs.«159327_j17051020165443_2_alg».proof.Proof.Spec
import proofs.«159327_j17051020165443_2_alg».proof.Proof.Gen.ReferenceIdeal.Read

noncomputable section

open Idealize.ShloMosaic Idealize.ShloMosaic.ValueIdx

namespace Cert.ReferenceIdeal.RefValue

open Cert.ReferenceIdeal Cert.ReferenceIdeal.Read Cert.ScaledProduct

/-- The contraction reads x at (row of the entry, k) … -/
theorem left_index (i : S8192x16384.Idx) (k : Fin 4096) :
    lidx_main_v1 i k = ix2 (⟨(i 0).val, (i 0).isLt⟩ : Fin 8192) k :=
  funext fun a => Fin.ext (by match a with | ⟨0, _⟩ => rfl | ⟨1, _⟩ => rfl)
/-- … and the signs at (column of the entry, k). -/
theorem right_index (i : S8192x16384.Idx) (k : Fin 4096) :
    ridx_main_v1 i k = ix2 (⟨(i 1).val, (i 1).isLt⟩ : Fin 16384) k :=
  funext fun a => Fin.ext (by match a with | ⟨0, _⟩ => rfl | ⟨1, _⟩ => rfl)
/-- The repeated scales read the scale of the entry's column. -/
theorem scale_index (i : S8192x16384.Idx) :
    idx_main_v2 (idx_main_v3 i) = ix1 (⟨(i 1).val, (i 1).isLt⟩ : Fin 16384) :=
  funext fun a => Fin.ext (by match a with | ⟨0, _⟩ => rfl)

/-- The reference's result is the target function of x, the signs of the weights, and the scales. -/
theorem reference_eq_target (x0 : (⟨S8192x4096, .f32⟩ : BufTy).Contents (Elt Ideal))
    (x1 : (⟨S16384x4096, .f32⟩ : BufTy).Contents (Elt Ideal)) (x2 : (⟨S16384, .f32⟩ : BufTy).Contents (Elt Ideal)) :
    val_main_v4 (F := Ideal) x0 x1 x2 = target x0 (val_main_v0 (F := Ideal) x1) x2 := by
  funext i
  rw [val_main_v4_apply, val_main_v1_apply, val_main_v3_apply, val_main_v2_apply]
  simp only [left_index, right_index, scale_index]
  rfl

end Cert.ReferenceIdeal.RefValue

end
-- ==== Proof.lean ====
/-
  A dense product with binarized weights: for x of shape [8192, 4096], weights w of shape [16384, 4096] and
  scales of shape [16384],

      y[r, o] = (∑ k < 4096, x[r, k] · sign(w)[o, k]) · scale[o].

  The reference computes this with one contraction over the whole inner axis.  The kernel takes the sign of the
  weights, transposes it, and walks a grid of 8 × 16 output tiles of 1024 × 1024, each visited twice: the first
  visit zeroes an accumulator and adds the product of the tile's rows of x with the tile's columns of the
  transposed signs over the first 2048 inner positions; the second visit adds the product over the last 2048, then
  multiplies by the tile's scales and writes the tile.  On the extended reals the changes of float format do nothing
  and both programs apply the same sign function, so the only difference is the grouping of the inner sum into two
  halves added to zero, and addition of extended reals is associative and commutative with neutral element zero,
  at the infinities too.  The finiteness of the inputs is therefore never used.

  The modules: HalfSums (the law), Spec (the target function and the law applied to it), ReferenceValue (the
  reference's five host operations read at an entry), CaseValues (what each of the two kinds of grid point leaves
  in the accumulator and the output tile), TileEntry (that arithmetic at one entry), HostPrefix (the arrays the grid
  reads, at an entry), BlockReads (where a point's blocks sit), WrittenTile (the tile a second visit writes),
  GridValue (the result array after the grid is the target function).  Here: the three programs run and leave
  their arguments unchanged, the idealization rewrote nothing, and the two idealized programs end with equal results.
-/
import proofs.«159327_j17051020165443_2_alg».proof.Defs
import proofs.«159327_j17051020165443_2_alg».proof.Proof.Gen.Kernel
import proofs.«159327_j17051020165443_2_alg».proof.Proof.Gen.Kernel.Frame
import proofs.«159327_j17051020165443_2_alg».proof.Proof.Gen.KernelIdeal
import proofs.«159327_j17051020165443_2_alg».proof.Proof.Gen.KernelIdeal.Frame
import proofs.«159327_j17051020165443_2_alg».proof.Proof.Gen.KernelIdeal.Value
import proofs.«159327_j17051020165443_2_alg».proof.Proof.Gen.ReferenceIdeal
import proofs.«159327_j17051020165443_2_alg».proof.Proof.Gen.ReferenceIdeal.Run
import proofs.«159327_j17051020165443_2_alg».proof.Proof.Gen.ReferenceIdeal.Read
import proofs.«159327_j17051020165443_2_alg».proof.Proof.Gen.Pre_finite_inputs
import proofs.«159327_j17051020165443_2_alg».proof.Proof.GridValue
import proofs.«159327_j17051020165443_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- On the extended reals, from memories that agree on the three arguments, the kernel's result array ends at the
    target function of the arguments (the grid's two half sums added to zero, scaled) and the reference's at its five
    operations' term, which is the same target function (one whole sum, scaled). -/
theorem algebraic : Cert.algebraic_KernelIdeal_ReferenceIdeal := by
  intro m ρ m' ρ' _ hagree
  refine ⟨fun c => Cert.KernelIdeal.GridValue.result m c, Cert.KernelIdeal.GridValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.reference_eq_target,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
